-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S1x256 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1x256 .f32 := Host.absf main_arg9
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S256 .f32) (main_arg7 : FVec F S256x256 .f32) (main_arg8 : FVec F S256 .f32) (main_arg9 : FVec F S1x256 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S256x128 .f32) (main_arg6 : FVec F S256 .f32) (main_arg7 : FVec F S256x256 .f32) (main_arg8 : FVec F S256 .f32) (main_arg9 : FVec F S1x256 .f32) (main_arg10 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x256 : Shape := ⟨2, ![128, 256]⟩
abbrev S256x1 : Shape := ⟨2, ![256, 1]⟩
abbrev S1x128 : Shape := ⟨2, ![1, 128]⟩
abbrev S1x1 : Shape := ⟨2, ![1, 1]⟩
abbrev S10000x1 : Shape := ⟨2, ![10000, 1]⟩
abbrev S1000x128 : Shape := ⟨2, ![1000, 128]⟩
abbrev S1000x1 : Shape := ⟨2, ![1000, 1]⟩
abbrev S1000x256 : Shape := ⟨2, ![1000, 256]⟩

abbrev nBuf : Space → Nat
  | .hbm => 43
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S10000x128, .f32⟩
  | .hbm, ⟨26, _⟩ => ⟨S640000x1, .i32⟩
  | .hbm, ⟨27, _⟩ => ⟨S10000x128, .f32⟩
  | .hbm, ⟨28, _⟩ => ⟨S128x128, .f32⟩
  | .hbm, ⟨29, _⟩ => ⟨S128x128, .f32⟩
  | .hbm, ⟨30, _⟩ => ⟨S256x128, .f32⟩
  | .hbm, ⟨31, _⟩ => ⟨S256x128, .bf16⟩
  | .hbm, ⟨32, _⟩ => ⟨S128x256, .f32⟩
  | .hbm, ⟨33, _⟩ => ⟨S128x256, .bf16⟩
  | .hbm, ⟨34, _⟩ => ⟨S256x256, .f32⟩
  | .hbm, ⟨35, _⟩ => ⟨S256x256, .bf16⟩
  | .hbm, ⟨36, _⟩ => ⟨S256x1, .f32⟩
  | .hbm, ⟨37, _⟩ => ⟨S256x1, .bf16⟩
  | .hbm, ⟨38, _⟩ => ⟨S1x128, .f32⟩
  | .hbm, ⟨39, _⟩ => ⟨S1x256, .f32⟩
  | .hbm, ⟨40, _⟩ => ⟨S1x256, .f32⟩
  | .hbm, ⟨41, _⟩ => ⟨S1x1, .f32⟩
  | .hbm, ⟨42, _⟩ => ⟨S10000x1, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S256x128, .bf16⟩
  | .local _ .vmem, ⟨5, _⟩ => ⟨S1x128, .f32⟩
  | .local _ .vmem, ⟨6, _⟩ => ⟨S128x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x1, .bf16⟩
  | .local _ .vmem, ⟨11, _⟩ => ⟨S1x1, .f32⟩
  | .local _ .vmem, ⟨12, _⟩ => ⟨S1000x1, .f32⟩
  | .local _ .vmem, ⟨13, _⟩ => ⟨S1000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  transposes_S128x128_S128x128_1_0 : S128x128.Transposes [1, 0] S128x128
  concatenates_S128x128_S128x128_S256x128_d0 : Shape.Concatenates [S128x128, S128x128] S256x128 0
  bitsLt_bf16_f32 : FTy.bits .bf16 < FTy.bits .f32
  transposes_S256x128_S128x256_1_0 : S256x128.Transposes [1, 0] S128x256
  transposes_S256x256_S256x256_1_0 : S256x256.Transposes [1, 0] S256x256
  transposes_S1x256_S256x1_1_0 : S1x256.Transposes [1, 0] S256x1
  shapeCasts_S128_S1x128 : S128.ShapeCasts S1x128
  shapeCasts_S256_S1x256 : S256.ShapeCasts S1x256
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x256_S256x128_S1000x128_1_0_0_1_n_n_wf : DotDims.WF S1000x256 S256x128 S1000x128 [1] [0] [0] [1] [] []
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .bf16 = 32 ∨ (Rect.block (s := S256x1) S256x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x1.size a ≤ S10000x1.size a
  hwx0_10 : ∀ i : grid0.Coords, EltTy.bits .f32 = 32 ∨ (Rect.block (s := S10000x1) S1000x1.size (cc0_transform_10 i) (hinb0_10 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_v13) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S128x256 : Shape := ⟨2, ![128, 256]⟩
abbrev S10000x256 : Shape := ⟨2, ![10000, 256]⟩
abbrev S256x1 : Shape := ⟨2, ![256, 1]⟩
abbrev S10000x1 : Shape := ⟨2, ![10000, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S256x128, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S10000x128, .f32⟩
  | .hbm, ⟨26, _⟩ => ⟨S640000x1, .i32⟩
  | .hbm, ⟨27, _⟩ => ⟨S10000x128, .f32⟩
  | .hbm, ⟨28, _⟩ => ⟨S128x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S128x128, .f32⟩
  | .hbm, ⟨34, _⟩ => ⟨S10000x128, .f32⟩
  | .hbm, ⟨35, _⟩ => ⟨S10000x128, .f32⟩
  | .hbm, ⟨36, _⟩ => ⟨S128x256, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S_, .f32⟩
  | .hbm, ⟨42, _⟩ => ⟨S10000x256, .f32⟩
  | .hbm, ⟨43, _⟩ => ⟨S10000x256, .f32⟩
  | .hbm, ⟨44, _⟩ => ⟨S256x256, .f32⟩
  | .hbm, ⟨45, _⟩ => ⟨S10000x256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S_, .f32⟩
  | .hbm, ⟨50, _⟩ => ⟨S10000x256, .f32⟩
  | .hbm, ⟨51, _⟩ => ⟨S10000x256, .f32⟩
  | .hbm, ⟨52, _⟩ => ⟨S256x1, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S10000x1, .f32⟩
  | .hbm, ⟨64, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  dot_S10000x256_S256x256_S10000x256_1_0_0_1_n_n_wf : DotDims.WF S10000x256 S256x256 S10000x256 [1] [0] [0] [1] [] []
  dot_S10000x256_S256x1_S10000x1_1_0_0_1_n_n_wf : DotDims.WF S10000x256 S256x1 S10000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.KernelBlocks.lean ====
/-
  The kernel's blocks, read as entries of the arrays they are cut from.

  The grid has ten points. At point `t` the two feature windows and the result window hold rows 1000·t … 1000·t + 999
  of their arrays; every weight window holds its whole array at every point. A block read only moves the index, so it is
  stated for an arbitrary array first and applied to the arrays the kernel's operands hold afterwards.
-/
import proofs.«179544_j7052336300582_2_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-! ## The block index maps over the grid

The two feature windows and the result window move down one block of rows per point; every weight window stays at
its one block. Decided over the ten points. -/

theorem idx_rows : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_w2_0 : ∀ t : Fin cfg0.N, win0_2.index t (0 : Fin 2) = 0 := (by decide +kernel : ∀ t : Fin grid0.N, _)
theorem idx_w2_1 : ∀ t : Fin cfg0.N, win0_2.index t (1 : Fin 2) = 0 := (by decide +kernel : ∀ t : Fin grid0.N, _)
theorem idx_w3_0 : ∀ t : Fin cfg0.N, win0_3.index t (0 : Fin 2) = 0 := (by decide +kernel : ∀ t : Fin grid0.N, _)
theorem idx_w3_1 : ∀ t : Fin cfg0.N, win0_3.index t (1 : Fin 2) = 0 := (by decide +kernel : ∀ t : Fin grid0.N, _)
theorem idx_w4_0 : ∀ t : Fin cfg0.N, win0_4.index t (0 : Fin 2) = 0 := (by decide +kernel : ∀ t : Fin grid0.N, _)
theorem idx_w4_1 : ∀ t : Fin cfg0.N, win0_4.index t (1 : Fin 2) = 0 := (by decide +kernel : ∀ t : Fin grid0.N, _)
theorem idx_w5_0 : ∀ t : Fin cfg0.N, win0_5.index t (0 : Fin 2) = 0 := (by decide +kernel : ∀ t : Fin grid0.N, _)
theorem idx_w5_1 : ∀ t : Fin cfg0.N, win0_5.index t (1 : Fin 2) = 0 := (by decide +kernel : ∀ t : Fin grid0.N, _)
theorem idx_w6_0 : ∀ t : Fin cfg0.N, win0_6.index t (0 : Fin 2) = 0 := (by decide +kernel : ∀ t : Fin grid0.N, _)
theorem idx_w6_1 : ∀ t : Fin cfg0.N, win0_6.index t (1 : Fin 2) = 0 := (by decide +kernel : ∀ t : Fin grid0.N, _)
theorem idx_w7_0 : ∀ t : Fin cfg0.N, win0_7.index t (0 : Fin 2) = 0 := (by decide +kernel : ∀ t : Fin grid0.N, _)
theorem idx_w7_1 : ∀ t : Fin cfg0.N, win0_7.index t (1 : Fin 2) = 0 := (by decide +kernel : ∀ t : Fin grid0.N, _)
theorem idx_w8_0 : ∀ t : Fin cfg0.N, win0_8.index t (0 : Fin 2) = 0 := (by decide +kernel : ∀ t : Fin grid0.N, _)
theorem idx_w8_1 : ∀ t : Fin cfg0.N, win0_8.index t (1 : Fin 2) = 0 := (by decide +kernel : ∀ t : Fin grid0.N, _)
theorem idx_w9_0 : ∀ t : Fin cfg0.N, win0_9.index t (0 : Fin 2) = 0 := (by decide +kernel : ∀ t : Fin grid0.N, _)
theorem idx_w9_1 : ∀ t : Fin cfg0.N, win0_9.index t (1 : Fin 2) = 0 := (by decide +kernel : ∀ t : Fin grid0.N, _)

/-! ## A block read, for any array -/

/-- Row `p` of window 0's block at point `t` is row 1000·t + p of the array it is cut from. -/
theorem read_rows0 (A : (⟨S10000x128, .f32⟩ : BufTy).Contents (Elt Ideal)) (t : Fin cfg0.N) (p : Fin 1000) (k : Fin 128)
    (r : Fin 10000) (hr : r.val = t.val * 1000 + p.val) :
    ((cfg0.win 0).blk t).view.read (Elt Ideal) A (ix2 p k) = A (ix2 r k) := by
  obtain ⟨-, -, h0, h1, -⟩ := idx_rows t
  rw [View.read_apply]
  refine congrArg A (funext fun a => Fin.ext ?_)
  match a with
  | ⟨0, _⟩ => show win0_0.index t (0 : Fin 2) * 1000 + 1 * p.val = r.val; rw [h0, hr]; omega
  | ⟨1, _⟩ => show win0_0.index t (1 : Fin 2) * 128 + 1 * k.val = k.val; rw [h1]; omega

/-- Row `p` of window 1's block at point `t` is row 1000·t + p of the array it is cut from. -/
theorem read_rows1 (A : (⟨S10000x128, .f32⟩ : BufTy).Contents (Elt Ideal)) (t : Fin cfg0.N) (p : Fin 1000) (k : Fin 128)
    (r : Fin 10000) (hr : r.val = t.val * 1000 + p.val) :
    ((cfg0.win 1).blk t).view.read (Elt Ideal) A (ix2 p k) = A (ix2 r k) := by
  obtain ⟨-, -, -, -, h0, h1⟩ := idx_rows t
  rw [View.read_apply]
  refine congrArg A (funext fun a => Fin.ext ?_)
  match a with
  | ⟨0, _⟩ => show win0_1.index t (0 : Fin 2) * 1000 + 1 * p.val = r.val; rw [h0, hr]; omega
  | ⟨1, _⟩ => show win0_1.index t (1 : Fin 2) * 128 + 1 * k.val = k.val; rw [h1]; omega

/-- Row `p` of the result window's block at point `t` is row 1000·t + p of the array. -/
theorem read_rows10 (A : (⟨S10000x1, .f32⟩ : BufTy).Contents (Elt Ideal)) (t : Fin cfg0.N) (p : Fin 1000) (u : Fin 1)
    (r : Fin 10000) (hr : r.val = t.val * 1000 + p.val) :
    ((cfg0.win 10).blk t).view.read (Elt Ideal) A (ix2 p u) = A (ix2 r u) := by
  obtain ⟨h0, h1, -⟩ := idx_rows t
  rw [View.read_apply]
  refine congrArg A (funext fun a => Fin.ext ?_)
  match a with
  | ⟨0, _⟩ => show win0_10.index t (0 : Fin 2) * 1000 + 1 * p.val = r.val; rw [h0, hr]; omega
  | ⟨1, _⟩ => show win0_10.index t (1 : Fin 2) * 1 + 1 * u.val = u.val; rw [h1]; omega

/-- The stacked-weights window's block is the whole [256, 128] array. -/
theorem read_whole2 (A : (⟨S256x128, .bf16⟩ : BufTy).Contents (Elt Ideal)) (t : Fin cfg0.N) (y : S256x128.Idx) :
    ((cfg0.win 2).blk t).view.read (Elt Ideal) A y = A y := by
  have h0 := idx_w2_0 t
  have h1 := idx_w2_1 t
  rw [View.read_apply]
  refine congrArg A (funext fun a => Fin.ext ?_)
  match a with
  | ⟨0, _⟩ => show win0_2.index t (0 : Fin 2) * 256 + 1 * (y 0).val = (y 0).val; rw [h0]; omega
  | ⟨1, _⟩ => show win0_2.index t (1 : Fin 2) * 128 + 1 * (y 1).val = (y 1).val; rw [h1]; omega

/-- The graph-convolution bias window's block is the whole [1, 128] array. -/
theorem read_whole3 (A : (⟨S1x128, .f32⟩ : BufTy).Contents (Elt Ideal)) (t : Fin cfg0.N) (y : S1x128.Idx) :
    ((cfg0.win 3).blk t).view.read (Elt Ideal) A y = A y := by
  have h0 := idx_w3_0 t
  have h1 := idx_w3_1 t
  rw [View.read_apply]
  refine congrArg A (funext fun a => Fin.ext ?_)
  match a with
  | ⟨0, _⟩ => show win0_3.index t (0 : Fin 2) * 1 + 1 * (y 0).val = (y 0).val; rw [h0]; omega
  | ⟨1, _⟩ => show win0_3.index t (1 : Fin 2) * 128 + 1 * (y 1).val = (y 1).val; rw [h1]; omega

/-- The first-layer weights window's block is the whole [128, 256] array. -/
theorem read_whole4 (A : (⟨S128x256, .bf16⟩ : BufTy).Contents (Elt Ideal)) (t : Fin cfg0.N) (y : S128x256.Idx) :
    ((cfg0.win 4).blk t).view.read (Elt Ideal) A y = A y := by
  have h0 := idx_w4_0 t
  have h1 := idx_w4_1 t
  rw [View.read_apply]
  refine congrArg A (funext fun a => Fin.ext ?_)
  match a with
  | ⟨0, _⟩ => show win0_4.index t (0 : Fin 2) * 128 + 1 * (y 0).val = (y 0).val; rw [h0]; omega
  | ⟨1, _⟩ => show win0_4.index t (1 : Fin 2) * 256 + 1 * (y 1).val = (y 1).val; rw [h1]; omega

/-- The first-layer bias window's block is the whole [1, 256] array. -/
theorem read_whole5 (A : (⟨S1x256, .f32⟩ : BufTy).Contents (Elt Ideal)) (t : Fin cfg0.N) (y : S1x256.Idx) :
    ((cfg0.win 5).blk t).view.read (Elt Ideal) A y = A y := by
  have h0 := idx_w5_0 t
  have h1 := idx_w5_1 t
  rw [View.read_apply]
  refine congrArg A (funext fun a => Fin.ext ?_)
  match a with
  | ⟨0, _⟩ => show win0_5.index t (0 : Fin 2) * 1 + 1 * (y 0).val = (y 0).val; rw [h0]; omega
  | ⟨1, _⟩ => show win0_5.index t (1 : Fin 2) * 256 + 1 * (y 1).val = (y 1).val; rw [h1]; omega

/-- The second-layer weights window's block is the whole [256, 256] array. -/
theorem read_whole6 (A : (⟨S256x256, .bf16⟩ : BufTy).Contents (Elt Ideal)) (t : Fin cfg0.N) (y : S256x256.Idx) :
    ((cfg0.win 6).blk t).view.read (Elt Ideal) A y = A y := by
  have h0 := idx_w6_0 t
  have h1 := idx_w6_1 t
  rw [View.read_apply]
  refine congrArg A (funext fun a => Fin.ext ?_)
  match a with
  | ⟨0, _⟩ => show win0_6.index t (0 : Fin 2) * 256 + 1 * (y 0).val = (y 0).val; rw [h0]; omega
  | ⟨1, _⟩ => show win0_6.index t (1 : Fin 2) * 256 + 1 * (y 1).val = (y 1).val; rw [h1]; omega

/-- The second-layer bias window's block is the whole [1, 256] array. -/
theorem read_whole7 (A : (⟨S1x256, .f32⟩ : BufTy).Contents (Elt Ideal)) (t : Fin cfg0.N) (y : S1x256.Idx) :
    ((cfg0.win 7).blk t).view.read (Elt Ideal) A y = A y := by
  have h0 := idx_w7_0 t
  have h1 := idx_w7_1 t
  rw [View.read_apply]
  refine congrArg A (funext fun a => Fin.ext ?_)
  match a with
  | ⟨0, _⟩ => show win0_7.index t (0 : Fin 2) * 1 + 1 * (y 0).val = (y 0).val; rw [h0]; omega
  | ⟨1, _⟩ => show win0_7.index t (1 : Fin 2) * 256 + 1 * (y 1).val = (y 1).val; rw [h1]; omega

/-- The output weights window's block is the whole [256, 1] array. -/
theorem read_whole8 (A : (⟨S256x1, .bf16⟩ : BufTy).Contents (Elt Ideal)) (t : Fin cfg0.N) (y : S256x1.Idx) :
    ((cfg0.win 8).blk t).view.read (Elt Ideal) A y = A y := by
  have h0 := idx_w8_0 t
  have h1 := idx_w8_1 t
  rw [View.read_apply]
  refine congrArg A (funext fun a => Fin.ext ?_)
  match a with
  | ⟨0, _⟩ => show win0_8.index t (0 : Fin 2) * 256 + 1 * (y 0).val = (y 0).val; rw [h0]; omega
  | ⟨1, _⟩ => show win0_8.index t (1 : Fin 2) * 1 + 1 * (y 1).val = (y 1).val; rw [h1]; omega

/-- The output bias window's block is the whole [1, 1] array. -/
theorem read_whole9 (A : (⟨S1x1, .f32⟩ : BufTy).Contents (Elt Ideal)) (t : Fin cfg0.N) (y : S1x1.Idx) :
    ((cfg0.win 9).blk t).view.read (Elt Ideal) A y = A y := by
  have h0 := idx_w9_0 t
  have h1 := idx_w9_1 t
  rw [View.read_apply]
  refine congrArg A (funext fun a => Fin.ext ?_)
  match a with
  | ⟨0, _⟩ => show win0_9.index t (0 : Fin 2) * 1 + 1 * (y 0).val = (y 0).val; rw [h0]; omega
  | ⟨1, _⟩ => show win0_9.index t (1 : Fin 2) * 1 + 1 * (y 1).val = (y 1).val; rw [h1]; omega

/-! ## The kernel's blocks as entries of the operands' arrays -/

variable (m : (ℓ : Loc nD τ sig) → Buf (Elt Ideal) ℓ)

/-- The arrays the ten input windows are cut from, by name. -/
theorem arr0_eq (c : Dev nD) : V m c (Pipeline.arrRef spec0 0) = V m c main_v13 := rfl
theorem arr1_eq (c : Dev nD) : V m c (Pipeline.arrRef spec0 1) = V m c main_arg0 := rfl
theorem arr2_eq (c : Dev nD) : V m c (Pipeline.arrRef spec0 2) = V m c main_v17 := rfl
theorem arr3_eq (c : Dev nD) : V m c (Pipeline.arrRef spec0 3) = V m c main_v24 := rfl
theorem arr4_eq (c : Dev nD) : V m c (Pipeline.arrRef spec0 4) = V m c main_v19 := rfl
theorem arr5_eq (c : Dev nD) : V m c (Pipeline.arrRef spec0 5) = V m c main_v25 := rfl
theorem arr6_eq (c : Dev nD) : V m c (Pipeline.arrRef spec0 6) = V m c main_v21 := rfl
theorem arr7_eq (c : Dev nD) : V m c (Pipeline.arrRef spec0 7) = V m c main_v26 := rfl
theorem arr8_eq (c : Dev nD) : V m c (Pipeline.arrRef spec0 8) = V m c main_v23 := rfl
theorem arr9_eq (c : Dev nD) : V m c (Pipeline.arrRef spec0 9) = V m c main_v27 := rfl

theorem blk_agg (c : Dev nD) (t : Fin cfg0.N) (p : Fin 1000) (k : Fin 128) (r : Fin 10000) (hr : r.val = t.val * 1000 + p.val) :
    iblk m c 0 t (ix2 p k) = V m c (Pipeline.arrRef spec0 0) (ix2 r k) :=
  read_rows0 (V m c (Pipeline.arrRef spec0 0)) t p k r hr

theorem blk_x (c : Dev nD) (t : Fin cfg0.N) (p : Fin 1000) (k : Fin 128) (r : Fin 10000) (hr : r.val = t.val * 1000 + p.val) :
    iblk m c 1 t (ix2 p k) = V m c (Pipeline.arrRef spec0 1) (ix2 r k) :=
  read_rows1 (V m c (Pipeline.arrRef spec0 1)) t p k r hr

theorem blk_wcat (c : Dev nD) (t : Fin cfg0.N) (y : S256x128.Idx) : iblk m c 2 t y = V m c (Pipeline.arrRef spec0 2) y :=
  read_whole2 (V m c (Pipeline.arrRef spec0 2)) t y
theorem blk_brel (c : Dev nD) (t : Fin cfg0.N) (y : S1x128.Idx) : iblk m c 3 t y = V m c (Pipeline.arrRef spec0 3) y :=
  read_whole3 (V m c (Pipeline.arrRef spec0 3)) t y
theorem blk_w1 (c : Dev nD) (t : Fin cfg0.N) (y : S128x256.Idx) : iblk m c 4 t y = V m c (Pipeline.arrRef spec0 4) y :=
  read_whole4 (V m c (Pipeline.arrRef spec0 4)) t y
theorem blk_b1 (c : Dev nD) (t : Fin cfg0.N) (y : S1x256.Idx) : iblk m c 5 t y = V m c (Pipeline.arrRef spec0 5) y :=
  read_whole5 (V m c (Pipeline.arrRef spec0 5)) t y
theorem blk_w2 (c : Dev nD) (t : Fin cfg0.N) (y : S256x256.Idx) : iblk m c 6 t y = V m c (Pipeline.arrRef spec0 6) y :=
  read_whole6 (V m c (Pipeline.arrRef spec0 6)) t y
theorem blk_b2 (c : Dev nD) (t : Fin cfg0.N) (y : S1x256.Idx) : iblk m c 7 t y = V m c (Pipeline.arrRef spec0 7) y :=
  read_whole7 (V m c (Pipeline.arrRef spec0 7)) t y
theorem blk_w3 (c : Dev nD) (t : Fin cfg0.N) (y : S256x1.Idx) : iblk m c 8 t y = V m c (Pipeline.arrRef spec0 8) y :=
  read_whole8 (V m c (Pipeline.arrRef spec0 8)) t y
theorem blk_b3 (c : Dev nD) (t : Fin cfg0.N) (y : S1x1.Idx) : iblk m c 9 t y = V m c (Pipeline.arrRef spec0 9) y :=
  read_whole9 (V m c (Pipeline.arrRef spec0 9)) t y

end Cert.KernelIdeal.Hand

end
-- ==== Proof.Mlp.lean ====
/-
  One node of the graph network, as a function of that node's two feature rows and the weights, on the extended reals.

  A node's aggregated row `a` (the sum of its in-neighbours' features) and its own row `x` go through the graph
  convolution `a · W_relᵀ + b_rel + x · W_rootᵀ`, two dense layers with a ReLU each, a dense layer onto one unit, and the
  logistic function. Every sum runs over a literal range, and nothing here mentions either program.

  The one law of this file: a product summed over 256 indices, whose factors are each laid out as two halves of 128, is
  the two halves' sums added; with the bias moved across by commutativity this turns the fused 256-deep
  contraction `[a | x] · [W_relᵀ ; W_rootᵀ] + b_rel` into the convolution above. Addition on the extended reals is
  commutative and associative, so no finiteness is asked for.
-/
import Idealize.ShloMosaic.PureOps.Ideal
import Idealize.ShloMosaic.PureOps.IdealRules
import Idealize.ShloMosaic.Lib.ValueIdx

noncomputable section

open scoped BigOperators

namespace Cert.Mlp

open Idealize.ShloMosaic

/-- The graph convolution at output feature `j`: `(Σₖ a k · W_rel j k + b_rel j) + Σₖ x k · W_root j k`. -/
def conv (a x : Fin 128 → EReal) (Wrel Wroot : Fin 128 → Fin 128 → EReal) (brel : Fin 128 → EReal) (j : Fin 128) : EReal :=
  ((∑ k : Fin 128, a k * Wrel j k) + brel j) + ∑ k : Fin 128, x k * Wroot j k

/-- The first hidden layer at unit `j`: `max (Σₖ h k · W j k + b j) 0`. -/
def hidden1 (h : Fin 128 → EReal) (W : Fin 256 → Fin 128 → EReal) (b : Fin 256 → EReal) (j : Fin 256) : EReal :=
  max ((∑ k : Fin 128, h k * W j k) + b j) 0

/-- The second hidden layer at unit `j`: `max (Σₖ h k · W j k + b j) 0`. -/
def hidden2 (h : Fin 256 → EReal) (W : Fin 256 → Fin 256 → EReal) (b : Fin 256 → EReal) (j : Fin 256) : EReal :=
  max ((∑ k : Fin 256, h k * W j k) + b j) 0

/-- The output unit: the logistic function of `Σₖ h k · W k + b`. -/
def score (h : Fin 256 → EReal) (W : Fin 256 → EReal) (b : EReal) : EReal :=
  Ideal.logistic ((∑ k : Fin 256, h k * W k) + b)

/-- One node's score from its aggregated row, its own row, and the weights. -/
def node (a x : Fin 128 → EReal) (Wrel Wroot : Fin 128 → Fin 128 → EReal) (brel : Fin 128 → EReal)
    (W1 : Fin 256 → Fin 128 → EReal) (b1 : Fin 256 → EReal) (W2 : Fin 256 → Fin 256 → EReal) (b2 : Fin 256 → EReal)
    (W3 : Fin 256 → EReal) (b3 : EReal) : EReal :=
  score (hidden2 (hidden1 (conv a x Wrel Wroot brel) W1 b1) W2 b2) W3 b3

/-- A node's score depends on its rows and on the weights only through their entries. -/
theorem node_congr {a a' x x' : Fin 128 → EReal} {Wrel Wrel' Wroot Wroot' : Fin 128 → Fin 128 → EReal}
    {brel brel' : Fin 128 → EReal} {W1 W1' : Fin 256 → Fin 128 → EReal} {b1 b1' : Fin 256 → EReal}
    {W2 W2' : Fin 256 → Fin 256 → EReal} {b2 b2' : Fin 256 → EReal} {W3 W3' : Fin 256 → EReal} {b3 b3' : EReal}
    (ha : ∀ k, a k = a' k) (hx : ∀ k, x k = x' k) (hWrel : ∀ j k, Wrel j k = Wrel' j k)
    (hWroot : ∀ j k, Wroot j k = Wroot' j k) (hbrel : ∀ j, brel j = brel' j)
    (hW1 : ∀ j k, W1 j k = W1' j k) (hb1 : ∀ j, b1 j = b1' j) (hW2 : ∀ j k, W2 j k = W2' j k) (hb2 : ∀ j, b2 j = b2' j)
    (hW3 : ∀ k, W3 k = W3' k) (hb3 : b3 = b3') :
    node a x Wrel Wroot brel W1 b1 W2 b2 W3 b3 = node a' x' Wrel' Wroot' brel' W1' b1' W2' b2' W3' b3' := by
  obtain rfl : a = a' := funext ha
  obtain rfl : x = x' := funext hx
  obtain rfl : Wrel = Wrel' := funext fun j => funext fun k => hWrel j k
  obtain rfl : Wroot = Wroot' := funext fun j => funext fun k => hWroot j k
  obtain rfl : brel = brel' := funext hbrel
  obtain rfl : W1 = W1' := funext fun j => funext fun k => hW1 j k
  obtain rfl : b1 = b1' := funext hb1
  obtain rfl : W2 = W2' := funext fun j => funext fun k => hW2 j k
  obtain rfl : b2 = b2' := funext hb2
  obtain rfl : W3 = W3' := funext hW3
  obtain rfl := hb3
  rfl

/-- A sum over 256 indices is the sum over the first 128 plus the sum over the last 128. -/
theorem sum_halves (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

/-- The fused contraction is the convolution: if `c` is `a` then `x` and `w` is `wr` then `wo`, each laid end to end,
    then `Σ c·w + b = (Σ a·wr + b) + Σ x·wo`. -/
theorem fused_eq (c w : Fin 256 → EReal) (a x wr wo : Fin 128 → EReal) (b : EReal)
    (hca : ∀ k : Fin 128, c ⟨k.val, by have := k.isLt; omega⟩ = a k)
    (hcx : ∀ k : Fin 128, c ⟨128 + k.val, by have := k.isLt; omega⟩ = x k)
    (hwa : ∀ k : Fin 128, w ⟨k.val, by have := k.isLt; omega⟩ = wr k)
    (hwx : ∀ k : Fin 128, w ⟨128 + k.val, by have := k.isLt; omega⟩ = wo k) :
    (∑ k : Fin 256, c k * w k) + b = ((∑ k : Fin 128, a k * wr k) + b) + ∑ k : Fin 128, x k * wo k := by
  rw [sum_halves (fun k => c k * w k)]
  simp only [hca, hcx, hwa, hwx]
  exact add_right_comm _ _ _

/-- The logistic function spelt with a negation, an exponential, a sum and a quotient, the way the reference writes it
    with the literal one as a bit pattern, is the logistic function. -/
theorem logistic_spelt (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v := by
  have one : FloatOps.ofBits (F := Ideal) .f32 0x3F800000#32 = (1 : EReal) := IdealRules.sign_bit.ideal_onePat .f32
  rw [one]
  rfl

/-- The literal zero word of the ReLUs and accumulators is the extended real `0`. -/
theorem zero_word : FloatOps.ofBits (F := Ideal) .f32 0x00000000#32 = (0 : EReal) := by
  show Ideal.ofBits .f32 0x00000000#32 = 0
  simp [Ideal.ofBits, Ideal.ieee]

/-- Node `r`'s score from the whole arrays: `A` the aggregated features [10000, 128], `X` the node features
    [10000, 128], then the weights in the order the programs take them: W_rel [128, 128], b_rel [128], W_root [128, 128],
    W1 [256, 128], b1 [256], W2 [256, 256], b2 [256], W3 [1, 256], b3 [1]. A weight matrix is indexed (output, input). -/
def scoreOf (A X : (⟨2, ![10000, 128]⟩ : Shape).Idx → EReal)
    (Wrel : (⟨2, ![128, 128]⟩ : Shape).Idx → EReal) (brel : (⟨1, ![128]⟩ : Shape).Idx → EReal)
    (Wroot : (⟨2, ![128, 128]⟩ : Shape).Idx → EReal)
    (W1 : (⟨2, ![256, 128]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![1, 256]⟩ : Shape).Idx → EReal) (b3 : (⟨1, ![1]⟩ : Shape).Idx → EReal) (r : Fin 10000) : EReal :=
  node (fun k => A (ValueIdx.ix2 r k)) (fun k => X (ValueIdx.ix2 r k))
    (fun j k => Wrel (ValueIdx.ix2 j k)) (fun j k => Wroot (ValueIdx.ix2 j k)) (fun j => brel (ValueIdx.ix1 j))
    (fun j k => W1 (ValueIdx.ix2 j k)) (fun j => b1 (ValueIdx.ix1 j))
    (fun j k => W2 (ValueIdx.ix2 j k)) (fun j => b2 (ValueIdx.ix1 j))
    (fun k => W3 (ValueIdx.ix2 (0 : Fin 1) k)) (b3 (ValueIdx.ix1 (0 : Fin 1)))

/-- The result array [10000, 1]: entry (r, 0) is node `r`'s score. -/
def scores (A X : (⟨2, ![10000, 128]⟩ : Shape).Idx → EReal)
    (Wrel : (⟨2, ![128, 128]⟩ : Shape).Idx → EReal) (brel : (⟨1, ![128]⟩ : Shape).Idx → EReal)
    (Wroot : (⟨2, ![128, 128]⟩ : Shape).Idx → EReal)
    (W1 : (⟨2, ![256, 128]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![1, 256]⟩ : Shape).Idx → EReal) (b3 : (⟨1, ![1]⟩ : Shape).Idx → EReal) :
    (⟨2, ![10000, 1]⟩ : Shape).Idx → EReal :=
  fun i => scoreOf A X Wrel brel Wroot W1 b1 W2 b2 W3 b3 (i 0)

/-- The result array at (r, u) is node `r`'s score. -/
theorem scores_apply (A X : (⟨2, ![10000, 128]⟩ : Shape).Idx → EReal)
    (Wrel : (⟨2, ![128, 128]⟩ : Shape).Idx → EReal) (brel : (⟨1, ![128]⟩ : Shape).Idx → EReal)
    (Wroot : (⟨2, ![128, 128]⟩ : Shape).Idx → EReal)
    (W1 : (⟨2, ![256, 128]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![1, 256]⟩ : Shape).Idx → EReal) (b3 : (⟨1, ![1]⟩ : Shape).Idx → EReal) (r : Fin 10000) (u : Fin 1) :
    scores A X Wrel brel Wroot W1 b1 W2 b2 W3 b3 (ValueIdx.ix2 r u) = scoreOf A X Wrel brel Wroot W1 b1 W2 b2 W3 b3 r := rfl

end Cert.Mlp

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.KernelDots.lean ====
/-
  The kernel's four matrix products read at an index, on the extended reals.

  Each contracts the left operand's second axis against the right operand's first, into a zero accumulator; at row `p`
  and column `q` it is the sum over the contraction coordinate `k` of left (p, k) times right (k, q). The depths are
  256 (the fused graph convolution), 128 (first hidden layer), 256 (second hidden layer) and 256 (the output unit).
  For each set of dimension numbers the two free-axis facts hold by computing the index maps.
-/
import proofs.«179544_j7052336300582_2_alg».proof.Proof.Gen.KernelIdeal
import proofs.«179544_j7052336300582_2_alg».proof.Proof.LibPlainDot

noncomputable section

open scoped BigOperators

namespace Cert.KernelIdeal.Hand

open Cert.KernelIdeal Idealize.ShloMosaic Idealize.ShloMosaic.ValueIdx

/-- The fused graph convolution's product, 256 deep: [1000, 256] × [256, 128]. -/
theorem dot_conv (l : FVec Ideal S1000x256 .bf16) (r : FVec Ideal S256x128 .bf16) (p : Fin 1000) (q : Fin 128) :
    matmul dot_S1000x256_S256x128_S1000x128_1_0_0_1_n_n none l r (constant S1000x128 .f32 0x00000000#32) (ix2 p q)
      = ∑ k : Fin 256, l (ix2 p k) * r (ix2 k q) :=
  Cert.LibPlainDot.matmul_zero_apply (M := 1000) (K := 256) (P := 128) dot_S1000x256_S256x128_S1000x128_1_0_0_1_n_n rfl rfl
    (fun j c => by
      unfold DotDims.lhsIdx
      rw [dif_neg (show ¬(0 : Fin S1000x256.rank) ∈ dot_S1000x256_S256x128_S1000x128_1_0_0_1_n_n.lhsBatch by decide),
        dif_pos (show (0 : Fin S1000x256.rank) ∈ dot_S1000x256_S256x128_S1000x128_1_0_0_1_n_n.lhsNonContracting by decide)]
      rfl)
    (fun j c => by
      unfold DotDims.rhsIdx
      rw [dif_neg (show ¬(1 : Fin S256x128.rank) ∈ dot_S1000x256_S256x128_S1000x128_1_0_0_1_n_n.rhsBatch by decide),
        dif_pos (show (1 : Fin S256x128.rank) ∈ dot_S1000x256_S256x128_S1000x128_1_0_0_1_n_n.rhsNonContracting by decide)]
      rfl)
    rfl rfl none l r p q

/-- The first hidden layer's product, 128 deep: [1000, 128] × [128, 256]. -/
theorem dot_hidden1 (l : FVec Ideal S1000x128 .bf16) (r : FVec Ideal S128x256 .bf16) (p : Fin 1000) (q : Fin 256) :
    matmul dot_S1000x128_S128x256_S1000x256_1_0_0_1_n_n none l r (constant S1000x256 .f32 0x00000000#32) (ix2 p q)
      = ∑ k : Fin 128, l (ix2 p k) * r (ix2 k q) :=
  Cert.LibPlainDot.matmul_zero_apply (M := 1000) (K := 128) (P := 256) dot_S1000x128_S128x256_S1000x256_1_0_0_1_n_n rfl rfl
    (fun j c => by
      unfold DotDims.lhsIdx
      rw [dif_neg (show ¬(0 : Fin S1000x128.rank) ∈ dot_S1000x128_S128x256_S1000x256_1_0_0_1_n_n.lhsBatch by decide),
        dif_pos (show (0 : Fin S1000x128.rank) ∈ dot_S1000x128_S128x256_S1000x256_1_0_0_1_n_n.lhsNonContracting by decide)]
      rfl)
    (fun j c => by
      unfold DotDims.rhsIdx
      rw [dif_neg (show ¬(1 : Fin S128x256.rank) ∈ dot_S1000x128_S128x256_S1000x256_1_0_0_1_n_n.rhsBatch by decide),
        dif_pos (show (1 : Fin S128x256.rank) ∈ dot_S1000x128_S128x256_S1000x256_1_0_0_1_n_n.rhsNonContracting by decide)]
      rfl)
    rfl rfl none l r p q

/-- The second hidden layer's product, 256 deep: [1000, 256] × [256, 256]. -/
theorem dot_hidden2 (l : FVec Ideal S1000x256 .bf16) (r : FVec Ideal S256x256 .bf16) (p : Fin 1000) (q : Fin 256) :
    matmul dot_S1000x256_S256x256_S1000x256_1_0_0_1_n_n none l r (constant S1000x256 .f32 0x00000000#32) (ix2 p q)
      = ∑ k : Fin 256, l (ix2 p k) * r (ix2 k q) :=
  Cert.LibPlainDot.matmul_zero_apply (M := 1000) (K := 256) (P := 256) dot_S1000x256_S256x256_S1000x256_1_0_0_1_n_n rfl rfl
    (fun j c => by
      unfold DotDims.lhsIdx
      rw [dif_neg (show ¬(0 : Fin S1000x256.rank) ∈ dot_S1000x256_S256x256_S1000x256_1_0_0_1_n_n.lhsBatch by decide),
        dif_pos (show (0 : Fin S1000x256.rank) ∈ dot_S1000x256_S256x256_S1000x256_1_0_0_1_n_n.lhsNonContracting by decide)]
      rfl)
    (fun j c => by
      unfold DotDims.rhsIdx
      rw [dif_neg (show ¬(1 : Fin S256x256.rank) ∈ dot_S1000x256_S256x256_S1000x256_1_0_0_1_n_n.rhsBatch by decide),
        dif_pos (show (1 : Fin S256x256.rank) ∈ dot_S1000x256_S256x256_S1000x256_1_0_0_1_n_n.rhsNonContracting by decide)]
      rfl)
    rfl rfl none l r p q

/-- The output unit's product, 256 deep: [1000, 256] × [256, 1]. -/
theorem dot_score (l : FVec Ideal S1000x256 .bf16) (r : FVec Ideal S256x1 .bf16) (p : Fin 1000) (q : Fin 1) :
    matmul dot_S1000x256_S256x1_S1000x1_1_0_0_1_n_n none l r (constant S1000x1 .f32 0x00000000#32) (ix2 p q)
      = ∑ k : Fin 256, l (ix2 p k) * r (ix2 k q) :=
  Cert.LibPlainDot.matmul_zero_apply (M := 1000) (K := 256) (P := 1) dot_S1000x256_S256x1_S1000x1_1_0_0_1_n_n rfl rfl
    (fun j c => by
      unfold DotDims.lhsIdx
      rw [dif_neg (show ¬(0 : Fin S1000x256.rank) ∈ dot_S1000x256_S256x1_S1000x1_1_0_0_1_n_n.lhsBatch by decide),
        dif_pos (show (0 : Fin S1000x256.rank) ∈ dot_S1000x256_S256x1_S1000x1_1_0_0_1_n_n.lhsNonContracting by decide)]
      rfl)
    (fun j c => by
      unfold DotDims.rhsIdx
      rw [dif_neg (show ¬(1 : Fin S256x1.rank) ∈ dot_S1000x256_S256x1_S1000x1_1_0_0_1_n_n.rhsBatch by decide),
        dif_pos (show (1 : Fin S256x1.rank) ∈ dot_S1000x256_S256x1_S1000x1_1_0_0_1_n_n.rhsNonContracting by decide)]
      rfl)
    rfl rfl none l r p q

end Cert.KernelIdeal.Hand

end
-- ==== Proof.KernelLayers.lean ====
/-
  The kernel body's arithmetic at one row of a block.

  The body takes a [1000, 128] block of aggregated features and the matching block of node features, lays them side by
  side into [1000, 256], multiplies by the stacked [256, 128] weights (W_relᵀ above W_rootᵀ) and adds the bias row; then
  two dense layers with a maximum against zero, a dense layer onto one column, and the logistic function. The roundings
  to the narrower float format are the identity on the extended reals. Cut into those four layers, each layer at
  (p, j) depends only on row `p` of its input, and is the corresponding layer of the node specification. The side-by-side
  layout meets the stacked weights through the split of a 256-term sum into its two halves.
-/
import proofs.«179544_j7052336300582_2_alg».proof.Proof.Gen.KernelIdeal.Skeleton
import proofs.«179544_j7052336300582_2_alg».proof.Proof.Mlp
import proofs.«179544_j7052336300582_2_alg».proof.Proof.KernelDots
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-! ## Two blocks laid side by side -/

/-- A column of the left half reads the first block. -/
theorem beside_left (v2 v4 : FVec Ideal S1000x128 .bf16) (p : Fin 1000) (k : Fin 128) :
    concatenate S1000x256 1 [⟨S1000x128, v2⟩, ⟨S1000x128, v4⟩] concatenates_S1000x128_S1000x128_S1000x256_d1
        (ix2 p (⟨k.val, by have := k.isLt; omega⟩ : Fin 256)) = v2 (ix2 p k) :=
  concatenate_pair_apply_left 1 v2 v4 concatenates_S1000x128_S1000x128_S1000x256_d1 _ rfl (ix2 p k)
    (fun b => match b with | ⟨0, _⟩ => rfl | ⟨1, _⟩ => rfl)

/-- A column of the right half reads the second block, 128 columns to the left. -/
theorem beside_right (v2 v4 : FVec Ideal S1000x128 .bf16) (p : Fin 1000) (k : Fin 128) :
    concatenate S1000x256 1 [⟨S1000x128, v2⟩, ⟨S1000x128, v4⟩] concatenates_S1000x128_S1000x128_S1000x256_d1
        (ix2 p (⟨128 + k.val, by have := k.isLt; omega⟩ : Fin 256)) = v4 (ix2 p k) :=
  concatenate_pair_apply_right 1 v2 v4 concatenates_S1000x128_S1000x128_S1000x256_d1 _ rfl rfl (ix2 p k)
    (fun b hb => match b with | ⟨0, _⟩ => rfl | ⟨1, _⟩ => absurd rfl hb)
    (by show k.val + 128 = 128 + k.val; omega)

/-! ## The four layers over blocks -/

/-- The fused graph convolution of a block. -/
def convBlk (v0 v3 : FVec Ideal S1000x128 .f32) (v6 : FVec Ideal S256x128 .bf16) (v9 : FVec Ideal S1x128 .f32) :
    FVec Ideal S1000x128 .f32 :=
  addf (matmul dot_S1000x256_S256x128_S1000x128_1_0_0_1_n_n none
      (concatenate S1000x256 1 [⟨S1000x128, truncf .bf16 (shapeCast S1000x128 v0 shapeCasts_S1000x128_S1000x128) bitsLt_bf16_f32⟩,
        ⟨S1000x128, truncf .bf16 v3 bitsLt_bf16_f32⟩] concatenates_S1000x128_S1000x128_S1000x256_d1)
      (shapeCast S256x128 v6 shapeCasts_S256x128_S256x128) (constant S1000x128 .f32 0x00000000#32))
    (broadcastTo S1000x128 (shapeCast S1x128 v9 shapeCasts_S1x128_S1x128) broadcasts_S1x128_S1000x128)

/-- The first hidden layer of a block. -/
def hid1Blk (h : FVec Ideal S1000x128 .f32) (v14 : FVec Ideal S128x256 .bf16) (v17 : FVec Ideal S1x256 .f32) :
    FVec Ideal S1000x256 .f32 :=
  maximumf (addf (matmul dot_S1000x128_S128x256_S1000x256_1_0_0_1_n_n none (truncf .bf16 h bitsLt_bf16_f32)
        (shapeCast S128x256 v14 shapeCasts_S128x256_S128x256) (constant S1000x256 .f32 0x00000000#32))
      (broadcastTo S1000x256 (shapeCast S1x256 v17 shapeCasts_S1x256_S1x256) broadcasts_S1x256_S1000x256))
    (broadcast S1000x256 (Scalar.ofBits .f32 0x00000000#32))

/-- The second hidden layer of a block. -/
def hid2Blk (h : FVec Ideal S1000x256 .f32) (v24 : FVec Ideal S256x256 .bf16) (v27 : FVec Ideal S1x256 .f32) :
    FVec Ideal S1000x256 .f32 :=
  maximumf (addf (matmul dot_S1000x256_S256x256_S1000x256_1_0_0_1_n_n none (truncf .bf16 h bitsLt_bf16_f32)
        (shapeCast S256x256 v24 shapeCasts_S256x256_S256x256) (constant S1000x256 .f32 0x00000000#32))
      (broadcastTo S1000x256 (shapeCast S1x256 v27 shapeCasts_S1x256_S1x256) broadcasts_S1x256_S1000x256))
    (broadcast S1000x256 (Scalar.ofBits .f32 0x00000000#32))

/-- The output unit of a block. -/
def scoreBlk (h : FVec Ideal S1000x256 .f32) (v34 : FVec Ideal S256x1 .bf16) (v37 : FVec Ideal S1x1 .f32) :
    FVec Ideal S1000x1 .f32 :=
  logistic (addf (matmul dot_S1000x256_S256x1_S1000x1_1_0_0_1_n_n none (truncf .bf16 h bitsLt_bf16_f32)
        (shapeCast S256x1 v34 shapeCasts_S256x1_S256x1) (constant S1000x1 .f32 0x00000000#32))
      (broadcastTo S1000x1 (shapeCast S1x1 v37 shapeCasts_S1x1_S1x1) broadcasts_S1x1_S1000x1))

/-- The body's stored value is the four layers composed. -/
theorem payload_eq (v0 v3 : Vec Ideal S1000x128 .f32) (v6 : Vec Ideal S256x128 .bf16) (v9 : Vec Ideal S1x128 .f32)
    (v14 : Vec Ideal S128x256 .bf16) (v17 : Vec Ideal S1x256 .f32) (v24 : Vec Ideal S256x256 .bf16) (v27 : Vec Ideal S1x256 .f32)
    (v34 : Vec Ideal S256x1 .bf16) (v37 : Vec Ideal S1x1 .f32) :
    k0_pay1 (k0_pay2 v0 v3 v6 v9 v14 v17 v24 v27) (k0_pay3 v34) v37
      = scoreBlk (hid2Blk (hid1Blk (convBlk v0 v3 v6 v9) v14 v17) v24 v27) v34 v37 := rfl

/-! ## Each layer at an index -/

theorem convBlk_apply (v0 v3 : FVec Ideal S1000x128 .f32) (v6 : FVec Ideal S256x128 .bf16) (v9 : FVec Ideal S1x128 .f32)
    (p : Fin 1000) (j : Fin 128) :
    convBlk v0 v3 v6 v9 (ix2 p j)
      = Cert.Mlp.conv (fun k => v0 (ix2 p k)) (fun k => v3 (ix2 p k))
          (fun j k => v6 (ix2 (⟨k.val, by have := k.isLt; omega⟩ : Fin 256) j))
          (fun j k => v6 (ix2 (⟨128 + k.val, by have := k.isLt; omega⟩ : Fin 256) j))
          (fun j => v9 (ix2 (0 : Fin 1) j)) j := by
  unfold convBlk
  rw [addf_apply, dot_conv, broadcastTo_1b_ab_apply]
  simp only [shapeCast_self]
  exact Cert.Mlp.fused_eq _ (fun k => v6 (ix2 k j)) (fun k => v0 (ix2 p k)) (fun k => v3 (ix2 p k)) _ _ _
    (fun k => beside_left _ _ p k) (fun k => beside_right _ _ p k) (fun _ => rfl) (fun _ => rfl)

theorem hid1Blk_apply (h : FVec Ideal S1000x128 .f32) (v14 : FVec Ideal S128x256 .bf16) (v17 : FVec Ideal S1x256 .f32)
    (p : Fin 1000) (j : Fin 256) :
    hid1Blk h v14 v17 (ix2 p j)
      = Cert.Mlp.hidden1 (fun k => h (ix2 p k)) (fun j k => v14 (ix2 k j)) (fun j => v17 (ix2 (0 : Fin 1) j)) j := by
  unfold hid1Blk
  rw [maximumf_apply, addf_apply, broadcast_apply, dot_hidden1, broadcastTo_1b_ab_apply]
  simp only [shapeCast_self]
  show max _ (Ideal.ofBits .f32 0x00000000#32) = _
  rw [Ideal.ofBits_zero_f32]
  rfl

theorem hid2Blk_apply (h : FVec Ideal S1000x256 .f32) (v24 : FVec Ideal S256x256 .bf16) (v27 : FVec Ideal S1x256 .f32)
    (p : Fin 1000) (j : Fin 256) :
    hid2Blk h v24 v27 (ix2 p j)
      = Cert.Mlp.hidden2 (fun k => h (ix2 p k)) (fun j k => v24 (ix2 k j)) (fun j => v27 (ix2 (0 : Fin 1) j)) j := by
  unfold hid2Blk
  rw [maximumf_apply, addf_apply, broadcast_apply, dot_hidden2, broadcastTo_1b_ab_apply]
  simp only [shapeCast_self]
  show max _ (Ideal.ofBits .f32 0x00000000#32) = _
  rw [Ideal.ofBits_zero_f32]
  rfl

/-- The logistic function of a vector, read at an index. -/
theorem logistic_apply {s : Shape} {φ : FTy} (a : FVec Ideal s φ) (i : s.Idx) : logistic a i = Ideal.logistic (a i) := rfl

theorem scoreBlk_apply (h : FVec Ideal S1000x256 .f32) (v34 : FVec Ideal S256x1 .bf16) (v37 : FVec Ideal S1x1 .f32)
    (p : Fin 1000) (u : Fin 1) :
    scoreBlk h v34 v37 (ix2 p u)
      = Cert.Mlp.score (fun k => h (ix2 p k)) (fun k => v34 (ix2 k (0 : Fin 1))) (v37 (ix2 (0 : Fin 1) (0 : Fin 1))) := by
  obtain rfl : u = 0 := Subsingleton.elim u 0
  unfold scoreBlk
  rw [logistic_apply, addf_apply, dot_score, broadcastTo_1b_ab_apply]
  simp only [shapeCast_self]
  rfl

/-- The body's stored value at row `p` of the block is the node specification of row `p` of the two feature blocks and
    of the weight blocks as staged: the stacked weights' upper half as W_relᵀ and lower half as W_rootᵀ, every other
    weight block transposed, every bias as a one-row block. -/
theorem payload_at (v0 v3 : Vec Ideal S1000x128 .f32) (v6 : Vec Ideal S256x128 .bf16) (v9 : Vec Ideal S1x128 .f32)
    (v14 : Vec Ideal S128x256 .bf16) (v17 : Vec Ideal S1x256 .f32) (v24 : Vec Ideal S256x256 .bf16) (v27 : Vec Ideal S1x256 .f32)
    (v34 : Vec Ideal S256x1 .bf16) (v37 : Vec Ideal S1x1 .f32) (p : Fin 1000) (u : Fin 1) :
    k0_pay1 (k0_pay2 v0 v3 v6 v9 v14 v17 v24 v27) (k0_pay3 v34) v37 (ix2 p u)
      = Cert.Mlp.node (fun k => v0 (ix2 p k)) (fun k => v3 (ix2 p k))
          (fun j k => v6 (ix2 (⟨k.val, by have := k.isLt; omega⟩ : Fin 256) j))
          (fun j k => v6 (ix2 (⟨128 + k.val, by have := k.isLt; omega⟩ : Fin 256) j))
          (fun j => v9 (ix2 (0 : Fin 1) j))
          (fun j k => v14 (ix2 k j)) (fun j => v17 (ix2 (0 : Fin 1) j))
          (fun j k => v24 (ix2 k j)) (fun j => v27 (ix2 (0 : Fin 1) j))
          (fun k => v34 (ix2 k (0 : Fin 1))) (v37 (ix2 (0 : Fin 1) (0 : Fin 1))) := by
  rw [payload_eq, scoreBlk_apply]
  simp only [hid2Blk_apply, hid1Blk_apply, convBlk_apply]
  rfl

end Cert.KernelIdeal.Hand

end
-- ==== Proof.KernelStaged.lean ====
/-
  The arrays the kernel's blocks are cut from, as functions of the program's arguments.

  Before the kernel is launched the host builds its operands: the aggregated features (a gather of the node features
  along the edges' sources, scatter-added onto the edges' destinations — carried here as one function `aggOf` of the
  node features and the edge list, never opened); the stacked weights, W_relᵀ above W_rootᵀ; each later weight matrix
  transposed; each bias as a one-row array. The roundings to the narrower float format are the identity on the extended
  reals. Read at an index, every staged weight entry is an entry of the argument it came from.
-/
import proofs.«179544_j7052336300582_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

/-- The aggregated features from the node features `x0` and the edge list `x1`: row `x1 (0, e)` of `x0` (a negative
    index counted from the end) is added into row `x1 (1, e)` of a zero array, for every edge `e`. -/
def aggOf (x0 : (⟨S10000x128, .f32⟩ : BufTy).Contents (Elt Ideal)) (x1 : (⟨S2x640000, .i32⟩ : BufTy).Contents (Elt Ideal)) :
    (⟨S10000x128, .f32⟩ : BufTy).Contents (Elt Ideal) :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0
      (shapeCast _ (extractStridedSlice S1x640000 ![1, 0] x1 slices_S2x640000_S1x640000_1_0) shapeCasts_S1x640000_S640000))
    (Host.gather gather_S10000x128_S640000x1_S640000x128_1_0_n_n_0_1_1128 x0
      (broadcastInDim S640000x1 ![0] bcast_S640000_S640000x1_0
        (select
          (cmpi .slt (shapeCast _ (extractStridedSlice S1x640000 ![0, 0] x1 slices_S2x640000_S1x640000_0_0) shapeCasts_S1x640000_S640000)
            (broadcastInDim S640000 ![] bcast_S_S640000 (constantI S_ 32 0#32)))
          (addi (shapeCast _ (extractStridedSlice S1x640000 ![0, 0] x1 slices_S2x640000_S1x640000_0_0) shapeCasts_S1x640000_S640000)
            (broadcastInDim S640000 ![] bcast_S_S640000 (constantI S_ 32 10000#32)))
          (shapeCast _ (extractStridedSlice S1x640000 ![0, 0] x1 slices_S2x640000_S1x640000_0_0) shapeCasts_S1x640000_S640000))))

variable (m : (ℓ : Loc nD τ sig) → Buf (Elt Ideal) ℓ)

/-- The first block operand's array holds the aggregated features of the arguments. -/
theorem staged_agg (c : Dev nD) :
    @Eq ((⟨S10000x128, .f32⟩ : BufTy).Contents (Elt Ideal)) (V m c main_v13)
      (aggOf (m ((c : Thread nD τ).loc main_arg0)) (m ((c : Thread nD τ).loc main_arg1))) := by
  unfold aggOf
  dsimp only [V, hostOps0]
  after_results_simp <;> rfl

/-- The stacked weights' upper half is W_rel transposed. -/
theorem staged_wcat_top (c : Dev nD) (k j : Fin 128) :
    (V m c main_v17 : FVec Ideal S256x128 .bf16) (ix2 (⟨k.val, by have := k.isLt; omega⟩ : Fin 256) j)
      = (m ((c : Thread nD τ).loc main_arg2) : FVec Ideal S128x128 .f32) (ix2 j k) := by
  have e : @Eq (FVec Ideal S256x128 .bf16) (V m c main_v17)
      (truncf (F := Ideal) .bf16 (concatenate S256x128 0
        [⟨S128x128, transpose S128x128 [1, 0] (m ((c : Thread nD τ).loc main_arg2)) transposes_S128x128_S128x128_1_0⟩,
         ⟨S128x128, transpose S128x128 [1, 0] (m ((c : Thread nD τ).loc main_arg4)) transposes_S128x128_S128x128_1_0⟩]
        concatenates_S128x128_S128x128_S256x128_d0) bitsLt_bf16_f32) := by
    dsimp only [V, hostOps0]
    after_results <;> rfl
  rw [e, truncf_apply]
  refine (concatenate_pair_apply_left 0 _ _ concatenates_S128x128_S128x128_S256x128_d0 _ rfl (ix2 k j)
    (fun b => match b with | ⟨0, _⟩ => rfl | ⟨1, _⟩ => rfl)).trans ?_
  exact transpose_apply [1, 0] _ transposes_S128x128_S128x128_1_0 (ix2 k j) (ix2 j k)
    (fun b => match b with | ⟨0, _⟩ => rfl | ⟨1, _⟩ => rfl)

/-- The stacked weights' lower half is W_root transposed. -/
theorem staged_wcat_bot (c : Dev nD) (k j : Fin 128) :
    (V m c main_v17 : FVec Ideal S256x128 .bf16) (ix2 (⟨128 + k.val, by have := k.isLt; omega⟩ : Fin 256) j)
      = (m ((c : Thread nD τ).loc main_arg4) : FVec Ideal S128x128 .f32) (ix2 j k) := by
  have e : @Eq (FVec Ideal S256x128 .bf16) (V m c main_v17)
      (truncf (F := Ideal) .bf16 (concatenate S256x128 0
        [⟨S128x128, transpose S128x128 [1, 0] (m ((c : Thread nD τ).loc main_arg2)) transposes_S128x128_S128x128_1_0⟩,
         ⟨S128x128, transpose S128x128 [1, 0] (m ((c : Thread nD τ).loc main_arg4)) transposes_S128x128_S128x128_1_0⟩]
        concatenates_S128x128_S128x128_S256x128_d0) bitsLt_bf16_f32) := by
    dsimp only [V, hostOps0]
    after_results <;> rfl
  rw [e, truncf_apply]
  refine (concatenate_pair_apply_right 0 _ _ concatenates_S128x128_S128x128_S256x128_d0 _ rfl rfl (ix2 k j)
    (fun b hb => match b with | ⟨0, _⟩ => absurd rfl hb | ⟨1, _⟩ => rfl)
    (by show k.val + 128 = 128 + k.val; omega)).trans ?_
  exact transpose_apply [1, 0] _ transposes_S128x128_S128x128_1_0 (ix2 k j) (ix2 j k)
    (fun b => match b with | ⟨0, _⟩ => rfl | ⟨1, _⟩ => rfl)

/-- The staged graph-convolution bias is b_rel as one row. -/
theorem staged_brel (c : Dev nD) (j : Fin 128) :
    (V m c main_v24 : FVec Ideal S1x128 .f32) (ix2 (0 : Fin 1) j)
      = (m ((c : Thread nD τ).loc main_arg3) : FVec Ideal S128 .f32) (ix1 j) := by
  have e : @Eq (FVec Ideal S1x128 .f32) (V m c main_v24)
      (shapeCast S1x128 (m ((c : Thread nD τ).loc main_arg3)) shapeCasts_S128_S1x128) := by
    dsimp only [V, hostOps0]
    after_results_simp <;> rfl
  rw [e]
  exact shapeCast_a_1a_apply _ shapeCasts_S128_S1x128 (0 : Fin 1) j

/-- The staged first-layer weights are W1 transposed. -/
theorem staged_w1 (c : Dev nD) (k : Fin 128) (j : Fin 256) :
    (V m c main_v19 : FVec Ideal S128x256 .bf16) (ix2 k j)
      = (m ((c : Thread nD τ).loc main_arg5) : FVec Ideal S256x128 .f32) (ix2 j k) := by
  have e : @Eq (FVec Ideal S128x256 .bf16) (V m c main_v19)
      (truncf (F := Ideal) .bf16 (transpose S128x256 [1, 0] (m ((c : Thread nD τ).loc main_arg5)) transposes_S256x128_S128x256_1_0)
        bitsLt_bf16_f32) := by
    dsimp only [V, hostOps0]
    after_results_simp <;> rfl
  rw [e, truncf_apply]
  exact transpose_apply [1, 0] _ transposes_S256x128_S128x256_1_0 (ix2 k j) (ix2 j k)
    (fun b => match b with | ⟨0, _⟩ => rfl | ⟨1, _⟩ => rfl)

/-- The staged first-layer bias is b1 as one row. -/
theorem staged_b1 (c : Dev nD) (j : Fin 256) :
    (V m c main_v25 : FVec Ideal S1x256 .f32) (ix2 (0 : Fin 1) j)
      = (m ((c : Thread nD τ).loc main_arg6) : FVec Ideal S256 .f32) (ix1 j) := by
  have e : @Eq (FVec Ideal S1x256 .f32) (V m c main_v25)
      (shapeCast S1x256 (m ((c : Thread nD τ).loc main_arg6)) shapeCasts_S256_S1x256) := by
    dsimp only [V, hostOps0]
    after_results_simp <;> rfl
  rw [e]
  exact shapeCast_a_1a_apply _ shapeCasts_S256_S1x256 (0 : Fin 1) j

/-- The staged second-layer weights are W2 transposed. -/
theorem staged_w2 (c : Dev nD) (k j : Fin 256) :
    (V m c main_v21 : FVec Ideal S256x256 .bf16) (ix2 k j)
      = (m ((c : Thread nD τ).loc main_arg7) : FVec Ideal S256x256 .f32) (ix2 j k) := by
  have e : @Eq (FVec Ideal S256x256 .bf16) (V m c main_v21)
      (truncf (F := Ideal) .bf16 (transpose S256x256 [1, 0] (m ((c : Thread nD τ).loc main_arg7)) transposes_S256x256_S256x256_1_0)
        bitsLt_bf16_f32) := by
    dsimp only [V, hostOps0]
    after_results_simp <;> rfl
  rw [e, truncf_apply]
  exact transpose_apply [1, 0] _ transposes_S256x256_S256x256_1_0 (ix2 k j) (ix2 j k)
    (fun b => match b with | ⟨0, _⟩ => rfl | ⟨1, _⟩ => rfl)

/-- The staged second-layer bias is b2 as one row. -/
theorem staged_b2 (c : Dev nD) (j : Fin 256) :
    (V m c main_v26 : FVec Ideal S1x256 .f32) (ix2 (0 : Fin 1) j)
      = (m ((c : Thread nD τ).loc main_arg8) : FVec Ideal S256 .f32) (ix1 j) := by
  have e : @Eq (FVec Ideal S1x256 .f32) (V m c main_v26)
      (shapeCast S1x256 (m ((c : Thread nD τ).loc main_arg8)) shapeCasts_S256_S1x256) := by
    dsimp only [V, hostOps0]
    after_results_simp <;> rfl
  rw [e]
  exact shapeCast_a_1a_apply _ shapeCasts_S256_S1x256 (0 : Fin 1) j

/-- The staged output weights are W3 transposed: one column. -/
theorem staged_w3 (c : Dev nD) (k : Fin 256) :
    (V m c main_v23 : FVec Ideal S256x1 .bf16) (ix2 k (0 : Fin 1))
      = (m ((c : Thread nD τ).loc main_arg9) : FVec Ideal S1x256 .f32) (ix2 (0 : Fin 1) k) := by
  have e : @Eq (FVec Ideal S256x1 .bf16) (V m c main_v23)
      (truncf (F := Ideal) .bf16 (transpose S256x1 [1, 0] (m ((c : Thread nD τ).loc main_arg9)) transposes_S1x256_S256x1_1_0)
        bitsLt_bf16_f32) := by
    dsimp only [V, hostOps0]
    after_results_simp <;> rfl
  rw [e, truncf_apply]
  exact transpose_apply [1, 0] _ transposes_S1x256_S256x1_1_0 (ix2 k (0 : Fin 1)) (ix2 (0 : Fin 1) k)
    (fun b => match b with | ⟨0, _⟩ => rfl | ⟨1, _⟩ => rfl)

/-- The staged output bias is b3 as a one-by-one array. -/
theorem staged_b3 (c : Dev nD) :
    (V m c main_v27 : FVec Ideal S1x1 .f32) (ix2 (0 : Fin 1) (0 : Fin 1))
      = (m ((c : Thread nD τ).loc main_arg10) : FVec Ideal S1 .f32) (ix1 (0 : Fin 1)) := by
  have e : @Eq (FVec Ideal S1x1 .f32) (V m c main_v27)
      (shapeCast S1x1 (m ((c : Thread nD τ).loc main_arg10)) shapeCasts_S1_S1x1) := by
    dsimp only [V, hostOps0]
    after_results_simp <;> rfl
  rw [e]
  exact shapeCast_a_1a_apply _ shapeCasts_S1_S1x1 (0 : Fin 1) (0 : Fin 1)

end Cert.KernelIdeal.Hand

end
-- ==== Proof.KernelValue.lean ====
/-
  The kernel's result array.

  Point `t` of the ten-point grid writes rows 1000·t … 1000·t + 999 of the [10000, 1] result. The value it writes at
  row `p` of its block is the body's stored value at that row, which is the node score of row 1000·t + p: the two
  feature blocks are those rows of the aggregated features and of the node features, and each weight block is the
  whole staged weight array, an entry of which is an entry of the argument it was built from. The ten blocks cover
  the result array (row `r` lies in the block of point `r / 1000`), so after the run it holds every node's score.
-/
import proofs.«179544_j7052336300582_2_alg».proof.Proof.Gen.KernelIdeal.Value
import proofs.«179544_j7052336300582_2_alg».proof.Proof.KernelBlocks
import proofs.«179544_j7052336300582_2_alg».proof.Proof.KernelLayers
import proofs.«179544_j7052336300582_2_alg».proof.Proof.KernelStaged
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array: every node's score, over the aggregated features as the kernel's first operand holds them. -/
def result (c : Dev nD) : (⟨S10000x1, .f32⟩ : BufTy).Contents (Elt Ideal) :=
  Cert.Mlp.scores (V m c main_v13) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The result array at (r, u) is the node specification of row `r`. -/
theorem result_apply (c : Dev nD) (r : Fin 10000) (u : Fin 1) :
    result m c (ix2 r u)
      = Cert.Mlp.node (fun k => (V m c main_v13 : FVec Ideal S10000x128 .f32) (ix2 r k))
          (fun k => (m ((c : Thread nD τ).loc main_arg0) : FVec Ideal S10000x128 .f32) (ix2 r k))
          (fun j k => (m ((c : Thread nD τ).loc main_arg2) : FVec Ideal S128x128 .f32) (ix2 j k))
          (fun j k => (m ((c : Thread nD τ).loc main_arg4) : FVec Ideal S128x128 .f32) (ix2 j k))
          (fun j => (m ((c : Thread nD τ).loc main_arg3) : FVec Ideal S128 .f32) (ix1 j))
          (fun j k => (m ((c : Thread nD τ).loc main_arg5) : FVec Ideal S256x128 .f32) (ix2 j k))
          (fun j => (m ((c : Thread nD τ).loc main_arg6) : FVec Ideal S256 .f32) (ix1 j))
          (fun j k => (m ((c : Thread nD τ).loc main_arg7) : FVec Ideal S256x256 .f32) (ix2 j k))
          (fun j => (m ((c : Thread nD τ).loc main_arg8) : FVec Ideal S256 .f32) (ix1 j))
          (fun k => (m ((c : Thread nD τ).loc main_arg9) : FVec Ideal S1x256 .f32) (ix2 (0 : Fin 1) k))
          ((m ((c : Thread nD τ).loc main_arg10) : FVec Ideal S1 .f32) (ix1 (0 : Fin 1))) := rfl

/-- The body's stored value at row `p` of point `t`'s blocks is the node score of row `r` = 1000·t + p. -/
theorem stored_at (c : Dev nD) (t : Fin cfg0.N) (p : Fin 1000) (u : Fin 1) (r : Fin 10000) (hr : r.val = t.val * 1000 + p.val) :
    k0_pay1 (k0_pay2 (iblk m c 0 t) (iblk m c 1 t) (iblk m c 2 t) (iblk m c 3 t) (iblk m c 4 t) (iblk m c 5 t)
        (iblk m c 6 t) (iblk m c 7 t)) (k0_pay3 (iblk m c 8 t)) (iblk m c 9 t) (ix2 p u)
      = result m c (ix2 r u) := by
  rw [payload_at, result_apply]
  exact Cert.Mlp.node_congr
    (fun k => (blk_agg m c t p k r hr).trans (congrFun (arr0_eq m c) (ix2 r k)))
    (fun k => ((blk_x m c t p k r hr).trans (congrFun (arr1_eq m c) (ix2 r k))).trans (congrFun (V_main_arg0 m c) (ix2 r k)))
    (fun j k => ((blk_wcat m c t _).trans (congrFun (arr2_eq m c) _)).trans (staged_wcat_top m c k j))
    (fun j k => ((blk_wcat m c t _).trans (congrFun (arr2_eq m c) _)).trans (staged_wcat_bot m c k j))
    (fun j => ((blk_brel m c t _).trans (congrFun (arr3_eq m c) _)).trans (staged_brel m c j))
    (fun j k => ((blk_w1 m c t _).trans (congrFun (arr4_eq m c) _)).trans (staged_w1 m c k j))
    (fun j => ((blk_b1 m c t _).trans (congrFun (arr5_eq m c) _)).trans (staged_b1 m c j))
    (fun j k => ((blk_w2 m c t _).trans (congrFun (arr6_eq m c) _)).trans (staged_w2 m c k j))
    (fun j => ((blk_b2 m c t _).trans (congrFun (arr7_eq m c) _)).trans (staged_b2 m c j))
    (fun k => ((blk_w3 m c t _).trans (congrFun (arr8_eq m c) _)).trans (staged_w3 m c k))
    (((blk_b3 m c t _).trans (congrFun (arr9_eq m c) _)).trans (staged_b3 m c))

/-- What point `t` writes back is block `t` of the result array. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [View.canon_unit_zero hz]
  simp only [View.ld_unit_zero (S := S1000x128) hz, View.ld_unit_zero (S := S256x128) hz, View.ld_unit_zero (S := S1x128) hz,
    View.ld_unit_zero (S := S128x256) hz, View.ld_unit_zero (S := S1x256) hz, View.ld_unit_zero (S := S256x256) hz,
    View.ld_unit_zero (S := S256x1) hz, View.ld_unit_zero (S := S1x1) hz]
  funext y
  obtain ⟨p, u, rfl⟩ : ∃ (p : Fin 1000) (u : Fin 1), y = ix2 p u := ⟨y 0, y 1, eq_ix2 y⟩
  have ht : t.val < 10 := by
    have h : t.val < grid0.N := t.isLt
    rw [N_0] at h
    exact h
  obtain ⟨r, hr⟩ : ∃ r : Fin 10000, r.val = t.val * 1000 + p.val :=
    ⟨⟨t.val * 1000 + p.val, by have := p.isLt; omega⟩, rfl⟩
  rw [read_rows10 (result m c) t p u r hr]
  exact stored_at m c t p u r hr

/-- An index of the result array is in point `t`'s block iff each coordinate is in the block's range on its axis. -/
theorem mem_blk (t : Fin cfg0.N) (i : S10000x1.Idx) :
    i ∈ ((cfg0.win 10).blk t).view.set ↔ ∀ a : Fin 2, win0_10.index t a * S1000x1.size a ≤ (i a).val
      ∧ (i a).val < win0_10.index t a * S1000x1.size a + S1000x1.size a := by
  show i ∈ ((View.whole main_v28).slice (win0_10.rect t)).set ↔ _
  rw [View.set_slice_whole, Rect.mem_set_unit]
  exact Iff.rfl

/-- Row `r` of the result array lies in the block of point `r / 1000`. -/
theorem cover (i : S10000x1.Idx) : ∃ t : Fin cfg0.N, (cfg0.win 10).flush t = true ∧ i ∈ ((cfg0.win 10).blk t).view.set := by
  have hi0 : (i 0).val < 10000 := (i 0).isLt
  have hi1 : (i 1).val < 1 := (i 1).isLt
  have hN : grid0.N = 10 := N_0
  have hlt : (i 0).val / 1000 < grid0.N := by rw [hN]; omega
  obtain ⟨e0, e1, -⟩ := idx_rows (⟨(i 0).val / 1000, hlt⟩ : Fin cfg0.N)
  refine ⟨⟨(i 0).val / 1000, hlt⟩, flush0_10 _, ?_⟩
  rw [mem_blk]
  intro a
  match a with
  | ⟨0, _⟩ =>
    show win0_10.index ⟨(i 0).val / 1000, hlt⟩ (0 : Fin 2) * 1000 ≤ (i 0).val
      ∧ (i 0).val < win0_10.index ⟨(i 0).val / 1000, hlt⟩ (0 : Fin 2) * 1000 + 1000
    rw [e0]
    show (i 0).val / 1000 * 1000 ≤ (i 0).val ∧ (i 0).val < (i 0).val / 1000 * 1000 + 1000
    omega
  | ⟨1, _⟩ =>
    show win0_10.index ⟨(i 0).val / 1000, hlt⟩ (1 : Fin 2) * 1 ≤ (i 1).val
      ∧ (i 1).val < win0_10.index ⟨(i 0).val / 1000, hlt⟩ (1 : Fin 2) * 1 + 1
    rw [e1]
    omega

/-- After the run the result array holds every node's score. -/
theorem final (c : Dev nD) : (dats m 0 c).arrAt 10 cfg0.N = result m c :=
  (dats m 0 c).arrAt_eq_of_cover 10 (result m c) (fun t _ => flushed_eq m c t) cover

/-- The run, read: the result array at the node scores, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩)
    (Cert.KernelIdeal.Value.run_blocks m ρ)

end Cert.KernelIdeal.Hand

end
-- ==== Proof.RefNode.lean ====
/-
  The reference computes each node's score.

  Read one operation at a time at an index, the reference's result at row `r` is: the graph convolution of row `r` of
  the aggregated features and of the node features (two products of depth 128, the bias added between them), two dense
  layers each followed by a maximum with zero, a dense layer onto one unit, and `1 / (1 + exp (-h))`, which on the
  extended reals is the logistic function. The aggregated features (a gather along the edges' sources followed by a
  scatter-add onto their destinations) enter as one array and are never opened.
-/
import proofs.«179544_j7052336300582_2_alg».proof.Proof.Gen.ReferenceIdeal.Read
import proofs.«179544_j7052336300582_2_alg».proof.Proof.Mlp
import Idealize.ShloMosaic.Lib.ValueIdx

noncomputable section

open scoped BigOperators

namespace Cert.ReferenceIdeal.Hand

open Cert.ReferenceIdeal Cert.ReferenceIdeal.Read Idealize.ShloMosaic Idealize.ShloMosaic.ValueIdx

variable (x0 : (⟨S10000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S256x128, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S1x256, .f32⟩ : BufTy).Contents (Elt Ideal))
  (x10 : (⟨S1, .f32⟩ : BufTy).Contents (Elt Ideal))

/-- The graph convolution at (r, j): `(Σₖ agg (r, k) · W_rel (j, k) + b_rel j) + Σₖ x (r, k) · W_root (j, k)`. -/
theorem conv_at (r : Fin 10000) (j : Fin 128) :
    val_main_v21 (F := Ideal) x0 x1 x2 x3 x4 (ix2 r j)
      = Cert.Mlp.conv (fun k => val_main_v13 (F := Ideal) x0 x1 (ix2 r k)) (fun k => x0 (ix2 r k))
          (fun j k => x2 (ix2 j k)) (fun j k => x4 (ix2 j k)) (fun j => x3 (ix1 j)) j := by
  rw [val_main_v21_apply, val_main_v18_apply, val_main_v15_apply, val_main_v17_apply, val_main_v16_apply, val_main_v20_apply]
  simp only [val_main_v14_apply, val_main_v19_apply]
  have e1 : ∀ k : Fin 128, lidx_main_v15 (ix2 r j) k = ix2 r k := fun k => funext fun a => Fin.ext (by
    match a with | ⟨0, _⟩ => rfl | ⟨1, _⟩ => rfl)
  have e2 : ∀ k : Fin 128, idx_main_v14 (ridx_main_v15 (ix2 r j) k) = ix2 j k := fun k => funext fun a => Fin.ext (by
    match a with | ⟨0, _⟩ => rfl | ⟨1, _⟩ => rfl)
  have e3 : idx_main_v16 (idx_main_v17 (ix2 r j)) = ix1 j := funext fun a => Fin.ext (by
    match a with | ⟨0, _⟩ => rfl)
  have e4 : ∀ k : Fin 128, lidx_main_v20 (ix2 r j) k = ix2 r k := fun k => funext fun a => Fin.ext (by
    match a with | ⟨0, _⟩ => rfl | ⟨1, _⟩ => rfl)
  have e5 : ∀ k : Fin 128, idx_main_v19 (ridx_main_v20 (ix2 r j) k) = ix2 j k := fun k => funext fun a => Fin.ext (by
    match a with | ⟨0, _⟩ => rfl | ⟨1, _⟩ => rfl)
  simp only [e1, e2, e3, e4, e5]
  rfl

/-- The first hidden layer at (r, j). -/
theorem hidden1_at (r : Fin 10000) (j : Fin 256) :
    val_main_v27 (F := Ideal) x0 x1 x2 x3 x4 x5 x6 (ix2 r j)
      = Cert.Mlp.hidden1 (fun k => val_main_v21 (F := Ideal) x0 x1 x2 x3 x4 (ix2 r k))
          (fun j k => x5 (ix2 j k)) (fun j => x6 (ix1 j)) j := by
  rw [val_main_v27_apply, val_main_v26_apply, val_main_v23_apply, val_main_v25_apply, val_main_v24_apply,
    val_main_call0_v0_apply, val_main_call0_cst_apply]
  simp only [val_main_v22_apply]
  have e1 : ∀ k : Fin 128, lidx_main_v23 (ix2 r j) k = ix2 r k := fun k => funext fun a => Fin.ext (by
    match a with | ⟨0, _⟩ => rfl | ⟨1, _⟩ => rfl)
  have e2 : ∀ k : Fin 128, idx_main_v22 (ridx_main_v23 (ix2 r j) k) = ix2 j k := fun k => funext fun a => Fin.ext (by
    match a with | ⟨0, _⟩ => rfl | ⟨1, _⟩ => rfl)
  have e3 : idx_main_v24 (idx_main_v25 (ix2 r j)) = ix1 j := funext fun a => Fin.ext (by
    match a with | ⟨0, _⟩ => rfl)
  simp only [e1, e2, e3]
  rw [Cert.Mlp.zero_word]
  rfl

/-- The second hidden layer at (r, j). -/
theorem hidden2_at (r : Fin 10000) (j : Fin 256) :
    val_main_v33 (F := Ideal) x0 x1 x2 x3 x4 x5 x6 x7 x8 (ix2 r j)
      = Cert.Mlp.hidden2 (fun k => val_main_v27 (F := Ideal) x0 x1 x2 x3 x4 x5 x6 (ix2 r k))
          (fun j k => x7 (ix2 j k)) (fun j => x8 (ix1 j)) j := by
  rw [val_main_v33_apply, val_main_v32_apply, val_main_v29_apply, val_main_v31_apply, val_main_v30_apply,
    val_main_call1_v0_apply, val_main_call1_cst_apply]
  simp only [val_main_v28_apply]
  have e1 : ∀ k : Fin 256, lidx_main_v29 (ix2 r j) k = ix2 r k := fun k => funext fun a => Fin.ext (by
    match a with | ⟨0, _⟩ => rfl | ⟨1, _⟩ => rfl)
  have e2 : ∀ k : Fin 256, idx_main_v28 (ridx_main_v29 (ix2 r j) k) = ix2 j k := fun k => funext fun a => Fin.ext (by
    match a with | ⟨0, _⟩ => rfl | ⟨1, _⟩ => rfl)
  have e3 : idx_main_v30 (idx_main_v31 (ix2 r j)) = ix1 j := funext fun a => Fin.ext (by
    match a with | ⟨0, _⟩ => rfl)
  simp only [e1, e2, e3]
  rw [Cert.Mlp.zero_word]
  rfl

/-- The output unit at (r, u): the logistic function of `Σₖ h2 (r, k) · W3 (0, k) + b3 0`. -/
theorem score_at (r : Fin 10000) (u : Fin 1) :
    val_main_v44 (F := Ideal) x0 x1 x2 x3 x4 x5 x6 x7 x8 x9 x10 (ix2 r u)
      = Cert.Mlp.score (fun k => val_main_v33 (F := Ideal) x0 x1 x2 x3 x4 x5 x6 x7 x8 (ix2 r k))
          (fun k => x9 (ix2 (0 : Fin 1) k)) (x10 (ix1 (0 : Fin 1))) := by
  rw [val_main_v44_apply, val_main_v43_apply, val_main_cst_2_apply, val_main_v42_apply, val_main_v41_apply,
    val_main_cst_1_apply, val_main_v40_apply, val_main_v39_apply, Cert.Mlp.logistic_spelt,
    val_main_v38_apply, val_main_v35_apply, val_main_v37_apply, val_main_v36_apply]
  simp only [val_main_v34_apply]
  have e1 : ∀ k : Fin 256, lidx_main_v35 (ix2 r u) k = ix2 r k := fun k => funext fun a => Fin.ext (by
    match a with | ⟨0, _⟩ => rfl | ⟨1, _⟩ => rfl)
  have e2 : ∀ k : Fin 256, idx_main_v34 (ridx_main_v35 (ix2 r u) k) = ix2 (0 : Fin 1) k := fun k => funext fun a => Fin.ext (by
    have hu : u.val = 0 := by omega
    match a with | ⟨0, _⟩ => exact hu | ⟨1, _⟩ => rfl)
  have e3 : idx_main_v36 (idx_main_v37 (ix2 r u)) = ix1 (0 : Fin 1) := funext fun a => Fin.ext (by
    match a with | ⟨0, _⟩ => rfl)
  simp only [e1, e2, e3]
  rfl

/-- The reference's result array is the array of node scores, over the aggregated features as one array. -/
theorem result_eq :
    val_main_v44 (F := Ideal) x0 x1 x2 x3 x4 x5 x6 x7 x8 x9 x10
      = Cert.Mlp.scores (val_main_v13 (F := Ideal) x0 x1) x0 x2 x3 x4 x5 x6 x7 x8 x9 x10 := by
  funext i
  obtain ⟨r, u, rfl⟩ : ∃ (r : Fin 10000) (u : Fin 1), i = ix2 r u := ⟨i 0, i 1, eq_ix2 i⟩
  rw [Cert.Mlp.scores_apply, score_at]
  simp only [hidden2_at, hidden1_at, conv_at]
  rfl

end Cert.ReferenceIdeal.Hand

end
-- ==== Proof.lean ====
/-
  A graph convolution followed by a three-layer perceptron and a logistic output, over 10000 nodes and 640000 edges:
  the kernel against its reference, on the extended reals.

  Both programs first form the aggregated features on the host — the node features gathered along the edges' sources and
  scatter-added onto the edges' destinations — by the same operations in the same order; that array is carried through as
  one function of the node features and the edge list and never opened.

  The reference then computes, for all nodes at once, `agg · W_relᵀ + b_rel + x · W_rootᵀ`, two dense layers with a
  maximum against zero, a dense layer onto one unit, and `1 / (1 + exp (-h))`.

  The kernel works on ten blocks of a thousand nodes. In each it lays the block of aggregated features beside the
  block of node features, multiplies the [1000, 256] result by the weights stacked as W_relᵀ above W_rootᵀ, adds the
  bias, and goes on through the same dense layers, with weights transposed on the host beforehand, to the logistic
  function. It rounds to a narrower float format before each product; on the extended reals that is the identity.

  The two agree entry by entry. A node's score depends only on that node's two rows. The 256-term contraction against
  the stacked weights is the sum of the two 128-term contractions, and the bias moves across by commutativity and
  associativity of addition, which hold on all extended reals: the inputs' finiteness is not used. The logistic
  function is, by definition on the extended reals, the quotient the reference spells out. The ten blocks cover the
  result array, so after the run it holds every node's score.

  The word-level kernel, the idealized kernel and the reference each run to completion leaving their arguments
  unchanged; the idealization rewrote nothing, so it has nothing to preserve.
-/
import proofs.«179544_j7052336300582_2_alg».proof.Defs
import proofs.«179544_j7052336300582_2_alg».proof.Proof.Gen.Kernel
import proofs.«179544_j7052336300582_2_alg».proof.Proof.Gen.Kernel.Frame
import proofs.«179544_j7052336300582_2_alg».proof.Proof.Gen.KernelIdeal
import proofs.«179544_j7052336300582_2_alg».proof.Proof.Gen.KernelIdeal.Frame
import proofs.«179544_j7052336300582_2_alg».proof.Proof.Gen.KernelIdeal.Value
import proofs.«179544_j7052336300582_2_alg».proof.Proof.Gen.ReferenceIdeal
import proofs.«179544_j7052336300582_2_alg».proof.Proof.Gen.ReferenceIdeal.Run
import proofs.«179544_j7052336300582_2_alg».proof.Proof.Gen.ReferenceIdeal.Read
import proofs.«179544_j7052336300582_2_alg».proof.Proof.Gen.Pre_finite_inputs
import proofs.«179544_j7052336300582_2_alg».proof.Proof.KernelValue
import proofs.«179544_j7052336300582_2_alg».proof.Proof.RefNode
import Idealize.ShloMosaic.Adequacy
import Idealize.ShloMosaic.Init

noncomputable section

namespace Cert.Proof

open Idealize.ShloMosaic Idealize.SL.Sem

/-- The two programs build the aggregated features by the same operations: one function of the node features and the
    edge list. -/
theorem agg_same (x0 : (⟨Cert.ReferenceIdeal.S10000x128, .f32⟩ : BufTy).Contents (Elt Ideal))
    (x1 : (⟨Cert.ReferenceIdeal.S2x640000, .i32⟩ : BufTy).Contents (Elt Ideal)) :
    Cert.ReferenceIdeal.Read.val_main_v13 (F := Ideal) x0 x1 = Cert.KernelIdeal.Hand.aggOf x0 x1 := rfl

/-- The word-level kernel runs to completion and leaves its arguments unchanged. -/
theorem frame_kernel : Cert.frame_Kernel := fun m ρ _ => Cert.Kernel.Gen.frame m ρ

/-- The idealized kernel runs to completion and leaves its arguments unchanged. -/
theorem frame_kernelIdeal : Cert.frame_KernelIdeal := fun m ρ _ => Cert.KernelIdeal.Gen.frame m ρ

/-- The reference runs to completion and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array and the reference's both end at the array of
    node scores. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.result m c
  obtain ⟨h0, h1, h2, h3, h4, h5, h6, h7, h8, h9, h10⟩ := hagree c
  rw [Cert.ReferenceIdeal.Read.val_main_v44_eq, Cert.ReferenceIdeal.Hand.result_eq, agg_same,
    h0, h1, h2, h3, h4, h5, h6, h7, h8, h9, h10, ← Cert.KernelIdeal.Hand.staged_agg m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
